-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x2048x1024 : Shape := ⟨3, ![32, 2048, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024 .f32) (main_arg5 : FVec F S1024x2048 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32x1024x1024 .f32) (main_arg1 : FVec F S32x2048x1024 .f32) (main_arg2 : FVec F S32x2048x1024 .f32) (main_arg3 : FVec F S1024x1024 .f32) (main_arg4 : FVec F S1024 .f32) (main_arg5 : FVec F S1024x2048 .f32) (main_arg6 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S32x2048x1024 .f32 := Host.absf main_arg2
  let main_cst_2 : FVec F S_ .f32 := constant S_ .f32 0x7F800000#32
  let main_v10 : FVec F S32x2048x1024 .f32 := broadcastInDim S32x2048x1024 ![] bcast_S_S32x2048x1024 main_cst_2
  let main_v11 : IVec S32x2048x1024 1 := cmpf .olt main_v9 main_v10
  let main_c_3 : IVec S_ 1 := constantI S_ 1 1#1
  let main_v12 : IVec S_ 1 := (fun x v => Host.reduce IntOp.andi x v reducesTo_S32x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S32x1024x1024 : Shape := ⟨3, ![32, 1024, 1024]⟩
abbrev S32x2048x1024 : Shape := ⟨3, ![32, 2048, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S32x1024x2048 : Shape := ⟨3, ![32, 1024, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 15
  | .smem => 0
  | _ => 0

abbrev bufTy : (tb : Table) → Fin (tcTables nBuf tb) → BufTy
  | .hbm, ⟨0, _⟩ => ⟨S32x1024x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S32x2048x1024, .bf16⟩
  | .hbm, ⟨8, _⟩ => ⟨S32x2048x1024, .bf16⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S32x1024x1024, .f32⟩
  | .hbm, ⟨17, _⟩ => ⟨S32x1024x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x2048, .f32⟩
  | .local _ .vmem, ⟨14, _⟩ => ⟨S1x256x2048, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .bf16 = 32 ∨ (Rect.block (s := S32x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S32x2048x1024.size a
  hwx0_2 : ∀ i : grid0.Coords, EltTy.bits .bf16 = 32 ∨ (Rect.block (s := S32x2048x1024) S1x2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S32x1024x1024.size a
  hwx0_8 : ∀ i : grid0.Coords, EltTy.bits .f32 = 32 ∨ (Rect.block (s := S32x1024x1024) S1x256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S32x1024x2048.size a
  hwx0_9 : ∀ i : grid0.Coords, EltTy.bits .f32 = 32 ∨ (Rect.block (s := S32x1024x2048) S1x256x2048.size (cc0_transform_9 i) (hinb0_9 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x2048x1024 : Shape := ⟨3, ![32, 2048, 1024]⟩
abbrev S1024x1024 : Shape := ⟨2, ![1024, 1024]⟩
abbrev S1024 : Shape := ⟨1, ![1024]⟩
abbrev S1024x2048 : Shape := ⟨2, ![1024, 2048]⟩
abbrev S1x1x1024 : Shape := ⟨3, ![1, 1, 1024]⟩
abbrev S32x1024x2048 : Shape := ⟨3, ![32, 1024, 2048]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S32x1024x1024, .f32⟩
  | .hbm, ⟨8, _⟩ => ⟨S1x1x1024, .f32⟩
  | .hbm, ⟨9, _⟩ => ⟨S32x1024x1024, .f32⟩
  | .hbm, ⟨10, _⟩ => ⟨S32x1024x1024, .f32⟩
  | .hbm, ⟨11, _⟩ => ⟨S32x1024x2048, .f32⟩
  | .hbm, ⟨12, _⟩ => ⟨S_, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024x1, .f32⟩
  | .hbm, ⟨18, _⟩ => ⟨S32x1024x2048, .f32⟩
  | .hbm, ⟨19, _⟩ => ⟨S32x1024x2048, .f32⟩
  | .hbm, ⟨20, _⟩ => ⟨S32x1024x2048, .f32⟩
  | .hbm, ⟨21, _⟩ => ⟨S_, .f32⟩
  | .hbm, ⟨22, _⟩ => ⟨S32x1024, .f32⟩
  | .hbm, ⟨23, _⟩ => ⟨S32x1024x1, .f32⟩
  | .hbm, ⟨24, _⟩ => ⟨S32x1024x2048, .f32⟩
  | .hbm, ⟨25, _⟩ => ⟨S32x1024x2048, .f32⟩
  | .hbm, ⟨26, _⟩ => ⟨S32x1024x1024, .f32⟩
  | .hbm, ⟨27, _⟩ => ⟨S32x1024x2048, .f32⟩
  | .hbm, ⟨28, _⟩ => ⟨S32x1024x1024, .f32⟩
  | .hbm, ⟨29, _⟩ => ⟨S1x1x1024, .f32⟩
  | .hbm, ⟨30, _⟩ => ⟨S32x1024x1024, .f32⟩
  | .hbm, ⟨31, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  reducesTo_S32x1024x2048_S32x1024_d2 : S32x1024x2048.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x2048_0_1_2 : S32x1024x1.BroadcastsInDim S32x1024x2048 (![0, 1, 2] : Fin 3 → Fin S32x1024x2048.rank)
  concatenates_S32x1024x1024_S32x1024x1024_S32x1024x2048_d2 : Shape.Concatenates [S32x1024x1024, S32x1024x1024] S32x1024x2048 2
  dot_S32x1024x1024_S1024x1024_S32x1024x1024_2_1_01_0_n_n_wf : DotDims.WF S32x1024x1024 S1024x1024 S32x1024x1024 [2] [1] [0, 1] [0] [] []
  dot_S32x1024x1024_S32x2048x1024_S32x1024x2048_2_2_1_1_0_0_wf : DotDims.WF S32x1024x1024 S32x2048x1024 S32x1024x2048 [2] [2] [1] [1] [0] [0]
  dot_S32x1024x2048_S32x2048x1024_S32x1024x1024_2_1_1_2_0_0_wf : DotDims.WF S32x1024x2048 S32x2048x1024 S32x1024x1024 [2] [1] [1] [2] [0] [0]
  dot_S32x1024x2048_S1024x2048_S32x1024x1024_2_1_01_0_n_n_wf : DotDims.WF S32x1024x2048 S1024x2048 S32x1024x1024 [2] [1] [0, 1] [0] [] []

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x2048x1024_S32x1024x2048_2_2_1_1_0_0 : DotDims S32x1024x1024 S32x2048x1024 S32x1024x2048 where
  lhsContracting := [2]
  rhsContracting := [2]
  lhsNonContracting := [1]
  rhsNonContracting := [1]
  lhsBatch := [0]
  rhsBatch := [0]
  wf := dot_S32x1024x1024_S32x2048x1024_S32x1024x2048_2_2_1_1_0_0_wf
def dot_S32x1024x2048_S32x2048x1024_S32x1024x1024_2_1_1_2_0_0 : DotDims S32x1024x2048 S32x2048x1024 S32x1024x1024 where
  lhsContracting := [2]
  rhsContracting := [1]
  lhsNonContracting := [1]
  rhsNonContracting := [2]
  lhsBatch := [0]
  rhsBatch := [0]
  wf := dot_S32x1024x2048_S32x2048x1024_S32x1024x1024_2_1_1_2_0_0_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.Spec.lean ====
/-
  The mathematics both programs compute, for ONE query row, over the extended reals.

  A query row `q` (1024 numbers) is projected, `p k = (Σ_j q j · Wq k j) + bq k`; scored against the 2048 keys of its
  batch, `s l = Σ_k p k · K l k`; the scores are turned into weights by the softmax taken the stable way — the row's
  maximum `M` (a fold of `max` from −∞) is subtracted, `e l = exp (s l − M)`, and `w l = e l / Σ_l' e l'` —; the
  weights average the values, `a v = Σ_l w l · V l v`; and the output row is the affine image of the concatenation
  of the query row and that average, written with the two halves of the output matrix kept apart:
  `out o = (Σ_j q j · Wa o j + Σ_v a v · Wb o v) + bc o`.
  Everything is a function of ROWS given as functions of their coordinates, so that a whole array (indexed by batch and
  row) and one staged block of it (indexed by the row inside the block) instantiate the same definitions.
  Two laws of the extended reals are proved here: folding `max` once more with the value the fold started from
  changes nothing, and a sum over 2048 = 1024 + 1024 coordinates is the sum over the first 1024 plus the sum over
  the last 1024. Neither needs a finite argument: `max` is idempotent on any order and addition on the extended
  reals is a commutative monoid.
-/
import Idealize.ShloMosaic.PureOps.Ideal
import Idealize.ShloMosaic.PureOps.Ideal.Laws
import Idealize.ShloMosaic.Lib.ValueIdx

noncomputable section

namespace Cert.AttnSpec

open Idealize.ShloMosaic

/-- The value the row maximum starts from: the f32 word of −∞, as both programs print it. -/
abbrev negInf : EReal := Ideal.ofBits .f32 0xFF800000#32

section Row

variable (q : Fin 1024 → EReal) (Wq : Fin 1024 → Fin 1024 → EReal) (bq : Fin 1024 → EReal)
  (Kb : Fin 2048 → Fin 1024 → EReal) (Vb : Fin 2048 → Fin 1024 → EReal)
  (Wa Wb : Fin 1024 → Fin 1024 → EReal) (bc : Fin 1024 → EReal)

/-- The projected query: `p k = (Σ_j q j · Wq k j) + bq k`. -/
def proj (k : Fin 1024) : EReal := (∑ j : Fin 1024, q j * Wq k j) + bq k

/-- The score against key `l`: `s l = Σ_k p k · K l k`. -/
def score (l : Fin 2048) : EReal := ∑ k : Fin 1024, proj q Wq bq k * Kb l k

/-- The row's largest score, folded from −∞. -/
def top : EReal := (Finset.univ : Finset (Fin 2048)).fold max negInf (score q Wq bq Kb)

/-- The shifted exponential `e l = exp (s l − M)`. -/
def expo (l : Fin 2048) : EReal := Ideal.exp (score q Wq bq Kb l - top q Wq bq Kb)

/-- The softmax weight `w l = e l / Σ_l' e l'`. -/
def weight (l : Fin 2048) : EReal := Ideal.div (expo q Wq bq Kb l) (∑ l' : Fin 2048, expo q Wq bq Kb l')

/-- The weighted average of the values: `a v = Σ_l w l · V l v`. -/
def attend (v : Fin 1024) : EReal := ∑ l : Fin 2048, weight q Wq bq Kb l * Vb l v

/-- The output row: `out o = (Σ_j q j · Wa o j + Σ_v a v · Wb o v) + bc o`. -/
def outRow (o : Fin 1024) : EReal :=
  (∑ j : Fin 1024, q j * Wa o j + ∑ v : Fin 1024, attend q Wq bq Kb Vb v * Wb o v) + bc o

end Row

/-- The weights depend on the rows only through their entries. -/
theorem weight_congr {q q' : Fin 1024 → EReal} {Wq Wq' : Fin 1024 → Fin 1024 → EReal} {bq bq' : Fin 1024 → EReal}
    {Kb Kb' : Fin 2048 → Fin 1024 → EReal} (hq : ∀ j, q j = q' j) (hW : ∀ k j, Wq k j = Wq' k j) (hb : ∀ k, bq k = bq' k)
    (hK : ∀ l k, Kb l k = Kb' l k) (l : Fin 2048) : weight q Wq bq Kb l = weight q' Wq' bq' Kb' l := by
  have e1 : q = q' := funext hq
  have e2 : Wq = Wq' := funext fun k => funext (hW k)
  have e3 : bq = bq' := funext hb
  have e4 : Kb = Kb' := funext fun l => funext (hK l)
  rw [e1, e2, e3, e4]

/-- So does the output row. -/
theorem outRow_congr {q q' : Fin 1024 → EReal} {Wq Wq' : Fin 1024 → Fin 1024 → EReal} {bq bq' : Fin 1024 → EReal}
    {Kb Kb' Vb Vb' : Fin 2048 → Fin 1024 → EReal} {Wa Wa' Wb Wb' : Fin 1024 → Fin 1024 → EReal} {bc bc' : Fin 1024 → EReal}
    (hq : ∀ j, q j = q' j) (hW : ∀ k j, Wq k j = Wq' k j) (hb : ∀ k, bq k = bq' k)
    (hK : ∀ l k, Kb l k = Kb' l k) (hV : ∀ l v, Vb l v = Vb' l v) (hA : ∀ o j, Wa o j = Wa' o j)
    (hB : ∀ o v, Wb o v = Wb' o v) (hc : ∀ o, bc o = bc' o) (o : Fin 1024) :
    outRow q Wq bq Kb Vb Wa Wb bc o = outRow q' Wq' bq' Kb' Vb' Wa' Wb' bc' o := by
  have e1 : q = q' := funext hq
  have e2 : Wq = Wq' := funext fun k => funext (hW k)
  have e3 : bq = bq' := funext hb
  have e4 : Kb = Kb' := funext fun l => funext (hK l)
  have e5 : Vb = Vb' := funext fun l => funext (hV l)
  have e6 : Wa = Wa' := funext fun o => funext (hA o)
  have e7 : Wb = Wb' := funext fun o => funext (hB o)
  have e8 : bc = bc' := funext hc
  rw [e1, e2, e3, e4, e5, e6, e7, e8]

/-- Folding `max` from `c` and then taking `max` with `c` again gives the fold: the fold is already above `c`. -/
theorem max_fold_max_self {ι : Type} (s : Finset ι) (c : EReal) (f : ι → EReal) :
    max c (s.fold max c f) = s.fold max c f :=
  max_eq_right ((Finset.le_fold_max c).mpr (Or.inl le_rfl))

/-- Coordinate `j` of the first 1024 of 2048 coordinates. -/
abbrev lo (j : Fin 1024) : Fin 2048 := ⟨j.val, by have := j.isLt; omega⟩
/-- Coordinate `v` of the last 1024: `1024 + v`. -/
abbrev hi (v : Fin 1024) : Fin 2048 := ⟨1024 + v.val, by have := v.isLt; omega⟩

/-- A sum over 2048 coordinates is the sum over the first 1024 plus the sum over the last 1024. -/
theorem sum_halves (f : Fin 2048 → EReal) :
    ∑ c : Fin 2048, f c = ∑ j : Fin 1024, f (lo j) + ∑ v : Fin 1024, f (hi v) :=
  Fin.sum_univ_add (M := EReal) (a := 1024) (b := 1024) f

/-! ## The two results as whole arrays

The arguments are the query array `Q` [32, 1024, 1024], the key and value arrays `K`, `V` [32, 2048, 1024], the
projection `Wq` [1024, 1024] with bias `bq` [1024], and the output matrix `Wc` [1024, 2048] with bias `bc` [1024],
whose columns 0‥1023 meet the query and 1024‥2047 the weighted values. Entry `(b, t, ·)` of either result is the
row mathematics above of query row `(b, t)` against batch `b`'s keys and values. -/

open Idealize.ShloMosaic.ValueIdx

section Arrays

variable (Q : (⟨3, ![32, 1024, 1024]⟩ : Shape).Idx → EReal) (K V : (⟨3, ![32, 2048, 1024]⟩ : Shape).Idx → EReal)
  (Wq : (⟨2, ![1024, 1024]⟩ : Shape).Idx → EReal) (bq : (⟨1, ![1024]⟩ : Shape).Idx → EReal)
  (Wc : (⟨2, ![1024, 2048]⟩ : Shape).Idx → EReal) (bc : (⟨1, ![1024]⟩ : Shape).Idx → EReal)

/-- The softmax weight of key `l` for query row `(b, t)`. -/
def weightAt (b : Fin 32) (t : Fin 1024) (l : Fin 2048) : EReal :=
  weight (fun j => Q (ix3 b t j)) (fun k j => Wq (ix2 k j)) (fun k => bq (ix1 k)) (fun l k => K (ix3 b l k)) l

/-- Output entry `o` of query row `(b, t)`. -/
def outAt (b : Fin 32) (t : Fin 1024) (o : Fin 1024) : EReal :=
  outRow (fun j => Q (ix3 b t j)) (fun k j => Wq (ix2 k j)) (fun k => bq (ix1 k)) (fun l k => K (ix3 b l k))
    (fun l v => V (ix3 b l v)) (fun o j => Wc (ix2 o (lo j))) (fun o v => Wc (ix2 o (hi v))) (fun o => bc (ix1 o)) o

/-- The attention weights as one array [32, 1024, 2048]. -/
def weightArr : (⟨3, ![32, 1024, 2048]⟩ : Shape).Idx → EReal := fun i => weightAt Q K Wq bq (i 0) (i 1) (i 2)

/-- The output as one array [32, 1024, 1024]. -/
def outArr : (⟨3, ![32, 1024, 1024]⟩ : Shape).Idx → EReal := fun i => outAt Q K V Wq bq Wc bc (i 0) (i 1) (i 2)

theorem weightArr_ix3 (b : Fin 32) (t : Fin 1024) (l : Fin 2048) :
    weightArr Q K Wq bq (ix3 b t l) = weightAt Q K Wq bq b t l := rfl

theorem outArr_ix3 (b : Fin 32) (t : Fin 1024) (o : Fin 1024) :
    outArr Q K V Wq bq Wc bc (ix3 b t o) = outAt Q K V Wq bq Wc bc b t o := rfl

end Arrays

end Cert.AttnSpec

end
-- ==== Proof.LibColumn.lean ====
/-
  Two layout operations read at an index given by coordinates, for the "keep the reduced axis" idiom: a vector of
  row results `[a]` is cast to a column `[a, 1]` and the column is broadcast along the rows to `[a, b]`, so that
  every entry `(p, c)` of the result is the row result `p`. General in the extents; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(i, u)`, the vector's entry `i`: both have row-major
    position `i`, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis is read at
    `0`, the other axis at the result's own coordinate. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector of row results kept as a column and spread along the rows is, at `(p, c)`, the row
    result `p`. -/
theorem keepdims_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Cert.LibColumn
-- ==== Proof.KernelDots.lean ====
/-
  One staged block of the kernel, read entry by entry.

  At a grid point the body holds a block of 256 query rows `x0`, the 2048 keys `x1` and values `x2` of the batch,
  the projection matrix `x3` and bias `x4`, the two halves `x5`, `x6` of the output matrix and the output bias `x7`.
  Its arithmetic is a chain of whole-block operations — three kinds of matrix product, a row maximum, a row sum,
  pointwise operations, and layout operations that add or drop unit axes. Read at row `r` of the block every stage
  is the corresponding function of `Spec.lean` of the block's row `r`:
    projected query  = `proj`,  scores = `score`,  row maximum = `top`,  shifted exponentials = `expo`,
    stored weights   = `weight`, weighted values = `attend`, stored output = `outRow`.
  A change of float format is the identity on the extended reals, a product into a zero accumulator is the plain sum
  of products over the contracted coordinate, the row sum from the zero word is the plain sum, and the row maximum
  is the fold of `max` from the −∞ word.
-/
import proofs.«111435_j9637906612873_2_alg».proof.Proof.Gen.KernelIdeal.Skeleton
import proofs.«111435_j9637906612873_2_alg».proof.Proof.Spec
import proofs.«111435_j9637906612873_2_alg».proof.Proof.LibColumn
import Idealize.ShloMosaic.Lib.ValueLayout
import Idealize.ShloMosaic.Lib.ValueIdx
import Idealize.ShloMosaic.PureOps.Ideal.Laws

noncomputable section

namespace Cert.KernelIdeal.Rows

open Cert.KernelIdeal Cert.KernelIdeal.Gen Cert.KernelIdeal.Facts₀
open Idealize.ShloMosaic Idealize.ShloMosaic.ValueIdx Cert.AttnSpec Cert.LibColumn

/-! ## The three matrix products, each into a zero accumulator, at an entry -/

/-- rows × rowsᵀ over 1024 columns: [256,1024] against [1024,1024], both contracted on their second axis. -/
abbrev dotQW := dot_S256x1024_S1024x1024_S256x1024_1_1_0_0_n_n
/-- rows × rowsᵀ over 1024 columns: [256,1024] against [2048,1024], both contracted on their second axis. -/
abbrev dotQK := dot_S256x1024_S2048x1024_S256x2048_1_1_0_0_n_n
/-- rows × columns over 2048: [256,2048] against [2048,1024], the right operand contracted on its first axis. -/
abbrev dotWV := dot_S256x2048_S2048x1024_S256x1024_1_0_0_1_n_n

theorem dotQW_lhs0 (i : S256x1024.Idx) (q : dotQW.contr.Idx) : (dotQW.lhsIdx i q 0).val = (i 0).val := by
  unfold DotDims.lhsIdx
  rw [dif_neg (show ¬(0 : Fin S256x1024.rank) ∈ dotQW.lhsBatch by decide), dif_pos (show (0 : Fin S256x1024.rank) ∈ dotQW.lhsNonContracting by decide)]
  rfl
theorem dotQW_rhs0 (i : S256x1024.Idx) (q : dotQW.contr.Idx) : (dotQW.rhsIdx i q 0).val = (i 1).val := by
  unfold DotDims.rhsIdx
  rw [dif_neg (show ¬(0 : Fin S1024x1024.rank) ∈ dotQW.rhsBatch by decide), dif_pos (show (0 : Fin S1024x1024.rank) ∈ dotQW.rhsNonContracting by decide)]
  rfl

/-- Entry `(r, n)` of the product is `Σ_k lhs (r, k) · rhs (n, k)`. -/
theorem dotQW_apply {φ₁ φ₂ : FTy} (lhs : FVec Ideal S256x1024 φ₁) (rhs : FVec Ideal S1024x1024 φ₂) (r : Fin 256) (n : Fin 1024) :
    matmul dotQW none lhs rhs (constant S256x1024 .f32 0x00000000#32) (ix2 r n)
      = ∑ k : Fin 1024, lhs (ix2 r k) * rhs (ix2 n k) := by
  simp only [matmul]
  rw [Ideal.matmul_constant_zero_apply, ← Equiv.sum_comp (contrEquiv1 dotQW 1024 rfl rfl).symm]
  refine Finset.sum_congr rfl fun k _ => ?_
  have hk := contrEquiv1_symm_val dotQW 1024 rfl rfl k
  have el : dotQW.lhsIdx (ix2 r n) ((contrEquiv1 dotQW 1024 rfl rfl).symm k) = ix2 r k := funext fun a => Fin.ext (by
    match a with
    | ⟨0, _⟩ => exact dotQW_lhs0 _ _
    | ⟨1, _⟩ => exact (dotQW.lhsIdx_val_of_single rfl _ _).trans hk)
  have er : dotQW.rhsIdx (ix2 r n) ((contrEquiv1 dotQW 1024 rfl rfl).symm k) = ix2 n k := funext fun a => Fin.ext (by
    match a with
    | ⟨0, _⟩ => exact dotQW_rhs0 _ _
    | ⟨1, _⟩ => exact (dotQW.rhsIdx_val_of_single rfl _ _).trans hk)
  rw [el, er]

theorem dotQK_lhs0 (i : S256x2048.Idx) (q : dotQK.contr.Idx) : (dotQK.lhsIdx i q 0).val = (i 0).val := by
  unfold DotDims.lhsIdx
  rw [dif_neg (show ¬(0 : Fin S256x1024.rank) ∈ dotQK.lhsBatch by decide), dif_pos (show (0 : Fin S256x1024.rank) ∈ dotQK.lhsNonContracting by decide)]
  rfl
theorem dotQK_rhs0 (i : S256x2048.Idx) (q : dotQK.contr.Idx) : (dotQK.rhsIdx i q 0).val = (i 1).val := by
  unfold DotDims.rhsIdx
  rw [dif_neg (show ¬(0 : Fin S2048x1024.rank) ∈ dotQK.rhsBatch by decide), dif_pos (show (0 : Fin S2048x1024.rank) ∈ dotQK.rhsNonContracting by decide)]
  rfl

/-- Entry `(r, l)` of the product is `Σ_k lhs (r, k) · rhs (l, k)`. -/
theorem dotQK_apply {φ₁ φ₂ : FTy} (lhs : FVec Ideal S256x1024 φ₁) (rhs : FVec Ideal S2048x1024 φ₂) (r : Fin 256) (l : Fin 2048) :
    matmul dotQK none lhs rhs (constant S256x2048 .f32 0x00000000#32) (ix2 r l)
      = ∑ k : Fin 1024, lhs (ix2 r k) * rhs (ix2 l k) := by
  simp only [matmul]
  rw [Ideal.matmul_constant_zero_apply, ← Equiv.sum_comp (contrEquiv1 dotQK 1024 rfl rfl).symm]
  refine Finset.sum_congr rfl fun k _ => ?_
  have hk := contrEquiv1_symm_val dotQK 1024 rfl rfl k
  have el : dotQK.lhsIdx (ix2 r l) ((contrEquiv1 dotQK 1024 rfl rfl).symm k) = ix2 r k := funext fun a => Fin.ext (by
    match a with
    | ⟨0, _⟩ => exact dotQK_lhs0 _ _
    | ⟨1, _⟩ => exact (dotQK.lhsIdx_val_of_single rfl _ _).trans hk)
  have er : dotQK.rhsIdx (ix2 r l) ((contrEquiv1 dotQK 1024 rfl rfl).symm k) = ix2 l k := funext fun a => Fin.ext (by
    match a with
    | ⟨0, _⟩ => exact dotQK_rhs0 _ _
    | ⟨1, _⟩ => exact (dotQK.rhsIdx_val_of_single rfl _ _).trans hk)
  rw [el, er]

theorem dotWV_lhs0 (i : S256x1024.Idx) (q : dotWV.contr.Idx) : (dotWV.lhsIdx i q 0).val = (i 0).val := by
  unfold DotDims.lhsIdx
  rw [dif_neg (show ¬(0 : Fin S256x2048.rank) ∈ dotWV.lhsBatch by decide), dif_pos (show (0 : Fin S256x2048.rank) ∈ dotWV.lhsNonContracting by decide)]
  rfl
theorem dotWV_rhs1 (i : S256x1024.Idx) (q : dotWV.contr.Idx) : (dotWV.rhsIdx i q 1).val = (i 1).val := by
  unfold DotDims.rhsIdx
  rw [dif_neg (show ¬(1 : Fin S2048x1024.rank) ∈ dotWV.rhsBatch by decide), dif_pos (show (1 : Fin S2048x1024.rank) ∈ dotWV.rhsNonContracting by decide)]
  rfl

/-- Entry `(r, v)` of the product is `Σ_l lhs (r, l) · rhs (l, v)`. -/
theorem dotWV_apply {φ₁ φ₂ : FTy} (lhs : FVec Ideal S256x2048 φ₁) (rhs : FVec Ideal S2048x1024 φ₂) (r : Fin 256) (v : Fin 1024) :
    matmul dotWV none lhs rhs (constant S256x1024 .f32 0x00000000#32) (ix2 r v)
      = ∑ l : Fin 2048, lhs (ix2 r l) * rhs (ix2 l v) := by
  simp only [matmul]
  rw [Ideal.matmul_constant_zero_apply, ← Equiv.sum_comp (contrEquiv1 dotWV 2048 rfl rfl).symm]
  refine Finset.sum_congr rfl fun k _ => ?_
  have hk := contrEquiv1_symm_val dotWV 2048 rfl rfl k
  have el : dotWV.lhsIdx (ix2 r v) ((contrEquiv1 dotWV 2048 rfl rfl).symm k) = ix2 r k := funext fun a => Fin.ext (by
    match a with
    | ⟨0, _⟩ => exact dotWV_lhs0 _ _
    | ⟨1, _⟩ => exact (dotWV.lhsIdx_val_of_single rfl _ _).trans hk)
  have er : dotWV.rhsIdx (ix2 r v) ((contrEquiv1 dotWV 2048 rfl rfl).symm k) = ix2 k v := funext fun a => Fin.ext (by
    match a with
    | ⟨0, _⟩ => exact (dotWV.rhsIdx_val_of_single rfl _ _).trans hk
    | ⟨1, _⟩ => exact dotWV_rhs1 _ _)
  rw [el, er]

end Cert.KernelIdeal.Rows

end
-- ==== Proof.KernelRows.lean ====
/-
  The stages of the kernel's arithmetic on one staged block, each read at an entry as the function of `Spec.lean` of
  the block's row (the matrix products at an entry are in `KernelDots.lean`).

  The block operands: `x0` the 256 query rows [1, 256, 1024], `x1` / `x2` the batch's keys / values [1, 2048, 1024],
  `x3` the projection matrix and `x4` its bias as one row [1, 1024], `x5` / `x6` the two halves of the output matrix,
  `x7` the output bias as one row. Row `r` of the block, as functions of coordinates: `qRow x0 r`, `slab x1`, ….
-/
import proofs.«111435_j9637906612873_2_alg».proof.Proof.KernelDots

noncomputable section

namespace Cert.KernelIdeal.Rows

open Cert.KernelIdeal Cert.KernelIdeal.Gen
open Idealize.ShloMosaic Idealize.ShloMosaic.ValueIdx Cert.AttnSpec Cert.LibColumn

/-- Row `r` of a block of query rows. -/
abbrev qRow (x : FVec Ideal S1x256x1024 .f32) (r : Fin 256) : Fin 1024 → EReal := fun j => x (ix3 (0 : Fin 1) r j)
/-- A 1024 × 1024 matrix by coordinates. -/
abbrev mat (x : FVec Ideal S1024x1024 .bf16) : Fin 1024 → Fin 1024 → EReal := fun k j => x (ix2 k j)
/-- A bias held as one row. -/
abbrev vecRow (x : FVec Ideal S1x1024 .f32) : Fin 1024 → EReal := fun k => x (ix2 (0 : Fin 1) k)
/-- One batch's 2048 × 1024 keys or values by coordinates. -/
abbrev slab (x : FVec Ideal S1x2048x1024 .bf16) : Fin 2048 → Fin 1024 → EReal := fun l k => x (ix3 (0 : Fin 1) l k)

variable (x0 : FVec Ideal S1x256x1024 .f32) (x1 x2 : FVec Ideal S1x2048x1024 .bf16) (x3 : FVec Ideal S1024x1024 .bf16)
  (x4 : FVec Ideal S1x1024 .f32) (x5 x6 : FVec Ideal S1024x1024 .bf16) (x7 : FVec Ideal S1x1024 .f32)

/-- The query block with its unit axis dropped and its format changed is the block: entry `(r, j)` is `x0 (0, r, j)`. -/
theorem pay2_apply (r : Fin 256) (j : Fin 1024) : k0_pay2 (F := Ideal) x0 (ix2 r j) = x0 (ix3 (0 : Fin 1) r j) := by
  show shapeCast S256x1024 x0 shapeCasts_S1x256x1024_S256x1024 (ix2 r j) = _
  exact shapeCast_1ab_ab_apply x0 _ r j

/-- The projected queries of the block: the product with the projection matrix plus the bias row spread over the rows. -/
def projB : FVec Ideal S256x1024 .f32 :=
  addf (matmul dotQW none (k0_pay2 (F := Ideal) x0) (shapeCast S1024x1024 x3 shapeCasts_S1024x1024_S1024x1024) (constant S256x1024 .f32 0x00000000#32))
    (broadcastTo S256x1024 (shapeCast S1x1024 x4 shapeCasts_S1x1024_S1x1024) broadcasts_S1x1024_S256x1024)

theorem projB_apply (r : Fin 256) (k : Fin 1024) :
    projB x0 x3 x4 (ix2 r k) = proj (qRow x0 r) (mat x3) (vecRow x4) k := by
  unfold projB proj
  rw [addf_apply, dotQW_apply, broadcastTo_1b_ab_apply, shapeCast_self, shapeCast_self]
  simp only [pay2_apply]

/-- The block's scores: the projected queries against the batch's keys. -/
def scoreB : FVec Ideal S256x2048 .f32 :=
  matmul dotQK none (truncf .bf16 (projB x0 x3 x4) bitsLt_bf16_f32) (shapeCast S2048x1024 x1 shapeCasts_S1x2048x1024_S2048x1024)
    (constant S256x2048 .f32 0x00000000#32)

theorem scoreB_apply (r : Fin 256) (l : Fin 2048) :
    scoreB x0 x1 x3 x4 (ix2 r l) = score (qRow x0 r) (mat x3) (vecRow x4) (slab x1) l := by
  unfold scoreB score
  rw [dotQK_apply]
  refine Finset.sum_congr rfl fun k _ => ?_
  rw [truncf_apply, projB_apply, shapeCast_1ab_ab_apply]

/-- Each row's largest score. -/
def topB : FVec Ideal S256 .f32 :=
  multiReduction .maximumf [1] S256 (scoreB x0 x1 x3 x4) 0xFF800000#32 reduces_S256x2048_S256 (.inl rfl) rfl

theorem topB_apply (r : Fin 256) :
    topB x0 x1 x3 x4 (ix1 r) = top (qRow x0 r) (mat x3) (vecRow x4) (slab x1) := by
  unfold topB top
  refine (Ideal.multiReduction_maximumf_single (scoreB x0 x1 x3 x4) 0xFF800000#32 reduces_S256x2048_S256 (.inl rfl) rfl (ix1 r)).trans ?_
  refine congrArg (fun f => (Finset.univ : Finset (Fin 2048)).fold max negInf f) ?_
  funext l
  show scoreB x0 x1 x3 x4 (reduces_S256x2048_S256.lift (ix1 r) l) = _
  rw [show reduces_S256x2048_S256.lift (ix1 r) l = ix2 r l from
    funext fun a => Fin.ext (by match a with | ⟨0, _⟩ => rfl | ⟨1, _⟩ => rfl)]
  exact scoreB_apply x0 x1 x3 x4 r l

/-- The shifted exponentials: the row maximum, kept as a column and spread along the row, is subtracted first. -/
def expoB : FVec Ideal S256x2048 .f32 :=
  exp (subf (scoreB x0 x1 x3 x4)
    (broadcastTo S256x2048 (shapeCast S256x1 (topB x0 x1 x3 x4) shapeCasts_S256_S256x1) broadcasts_S256x1_S256x2048))

theorem expoB_apply (r : Fin 256) (l : Fin 2048) :
    expoB x0 x1 x3 x4 (ix2 r l) = expo (qRow x0 r) (mat x3) (vecRow x4) (slab x1) l := by
  unfold expoB expo
  show Ideal.exp (scoreB x0 x1 x3 x4 (ix2 r l)
    - broadcastTo S256x2048 (shapeCast S256x1 (topB x0 x1 x3 x4) shapeCasts_S256_S256x1) broadcasts_S256x1_S256x2048 (ix2 r l)) = _
  rw [keepdims_apply, scoreB_apply, topB_apply]

/-- Each row's sum of shifted exponentials. -/
def sumB : FVec Ideal S256 .f32 :=
  multiReduction .add [1] S256 (expoB x0 x1 x3 x4) 0x00000000#32 reduces_S256x2048_S256 (.inl rfl) rfl

theorem sumB_apply (r : Fin 256) :
    sumB x0 x1 x3 x4 (ix1 r) = ∑ l : Fin 2048, expo (qRow x0 r) (mat x3) (vecRow x4) (slab x1) l := by
  unfold sumB
  refine (Ideal.multiReduction_add_single (expoB x0 x1 x3 x4) 0x00000000#32 reduces_S256x2048_S256 (.inl rfl) rfl (ix1 r)).trans ?_
  refine Finset.sum_congr rfl fun l _ => ?_
  rw [show reduces_S256x2048_S256.lift (ix1 r) l = ix2 r l from
    funext fun a => Fin.ext (by match a with | ⟨0, _⟩ => rfl | ⟨1, _⟩ => rfl)]
  exact expoB_apply x0 x1 x3 x4 r l

/-- The stored weights are the exponentials over their row sums, the sums kept as a column and spread along the row. -/
theorem pay3_eq : k0_pay3 (F := Ideal) x0 x3 x4 x1
    = divf (expoB x0 x1 x3 x4)
        (broadcastTo S256x2048 (shapeCast S256x1 (sumB x0 x1 x3 x4) shapeCasts_S256_S256x1) broadcasts_S256x1_S256x2048) := rfl

theorem pay3_apply (r : Fin 256) (l : Fin 2048) :
    k0_pay3 (F := Ideal) x0 x3 x4 x1 (ix2 r l) = weight (qRow x0 r) (mat x3) (vecRow x4) (slab x1) l := by
  rw [pay3_eq]
  unfold weight
  rw [divf_apply, keepdims_apply, expoB_apply, sumB_apply]

/-- The weights block as stored, with a unit axis in front. -/
theorem pay4_apply (u : Fin 1) (r : Fin 256) (l : Fin 2048) :
    k0_pay4 (F := Ideal) x0 x3 x4 x1 (ix3 u r l) = weight (qRow x0 r) (mat x3) (vecRow x4) (slab x1) l := by
  show shapeCast S1x256x2048 (k0_pay3 (F := Ideal) x0 x3 x4 x1) shapeCasts_S256x2048_S1x256x2048 (ix3 u r l) = _
  rw [shapeCast_ab_1ab_apply, pay3_apply]

/-- The weighted values: the weights against the batch's values. -/
theorem pay5_apply (r : Fin 256) (v : Fin 1024) :
    k0_pay5 (F := Ideal) x0 x3 x4 x1 x2 (ix2 r v) = attend (qRow x0 r) (mat x3) (vecRow x4) (slab x1) (slab x2) v := by
  show matmul dotWV none (truncf .bf16 (k0_pay3 (F := Ideal) x0 x3 x4 x1) bitsLt_bf16_f32)
    (shapeCast S2048x1024 x2 shapeCasts_S1x2048x1024_S2048x1024) (constant S256x1024 .f32 0x00000000#32) (ix2 r v) = _
  unfold attend
  rw [dotWV_apply]
  refine Finset.sum_congr rfl fun l _ => ?_
  rw [truncf_apply, pay3_apply, shapeCast_1ab_ab_apply]

/-- The stored output block: the queries against the first half of the output matrix, plus the weighted values
    against the second half, plus the bias row, with a unit axis in front. -/
theorem pay1_apply (u : Fin 1) (r : Fin 256) (o : Fin 1024) :
    k0_pay1 (F := Ideal) (k0_pay2 (F := Ideal) x0) (k0_pay5 (F := Ideal) x0 x3 x4 x1 x2) (k0_pay6 (F := Ideal) x5) (constant S256x1024 .f32 0x00000000#32) x6 x7 (ix3 u r o)
      = outRow (qRow x0 r) (mat x3) (vecRow x4) (slab x1) (slab x2) (mat x5) (mat x6) (vecRow x7) o := by
  show shapeCast S1x256x1024
    (addf (addf (matmul dotQW none (k0_pay2 (F := Ideal) x0) (shapeCast S1024x1024 x5 shapeCasts_S1024x1024_S1024x1024) (constant S256x1024 .f32 0x00000000#32))
                (matmul dotQW none (k0_pay5 (F := Ideal) x0 x3 x4 x1 x2) (shapeCast S1024x1024 x6 shapeCasts_S1024x1024_S1024x1024) (constant S256x1024 .f32 0x00000000#32)))
          (broadcastTo S256x1024 (shapeCast S1x1024 x7 shapeCasts_S1x1024_S1x1024) broadcasts_S1x1024_S256x1024))
    shapeCasts_S256x1024_S1x256x1024 (ix3 u r o) = _
  unfold outRow
  rw [shapeCast_ab_1ab_apply, addf_apply, addf_apply, dotQW_apply, dotQW_apply, broadcastTo_1b_ab_apply,
    shapeCast_self, shapeCast_self, shapeCast_self]
  simp only [pay2_apply, pay5_apply]

end Cert.KernelIdeal.Rows

end
-- ==== Proof.KernelBlocks.lean ====
/-
  From the blocks to the arrays.

  The grid has 32 × 4 points; point `t` works on batch `bat t` and on the 256 query rows `row t r` of it. Its query
  window and its two output windows hold those rows, its key and value windows hold the whole batch, and the five
  resident windows hold their whole arrays at every point. Before the region the program only changes float formats
  (the identity on the extended reals), cuts the output matrix into its two column halves, and views each bias as one
  row; so each window's block, read at an entry, is an entry of an argument array. With the block read in
  `KernelRows.lean` this says that what point `t` writes back through either output window is block `t` of ONE
  array — `outArr`, `weightArr` of `Spec.lean` —, and the 128 blocks tile each output array: after the run the two
  output arrays are those functions of the arguments.
-/
import proofs.«111435_j9637906612873_2_alg».proof.Proof.Gen.KernelIdeal.Value
import proofs.«111435_j9637906612873_2_alg».proof.Proof.KernelRows
import Idealize.ShloMosaic.Lib.StableHlo.Run
import Idealize.ShloMosaic.Lib.ValueLayout

noncomputable section

namespace Cert.KernelIdeal.Blocks

open Cert.KernelIdeal Cert.KernelIdeal.Gen Cert.KernelIdeal.Rows
open Idealize.ShloMosaic Idealize.ShloMosaic.TcCoe Idealize.SL.Sem Idealize.ShloMosaic.StableHlo
open Idealize.ShloMosaic.ValueIdx Cert.AttnSpec
open Idealize.ShloMosaic.Pipeline (Dat)

variable (m : (ℓ : Loc nD τ sig) → Buf (Elt Ideal) ℓ) (ρ : Dev nD → PrngReg) (c : Dev nD)

/-! ## The argument arrays, and what the region finds in each window's array -/

abbrev argQ : S32x1024x1024.Idx → EReal := m ((c : Thread nD τ).loc main_arg0)
abbrev argK : S32x2048x1024.Idx → EReal := m ((c : Thread nD τ).loc main_arg1)
abbrev argV : S32x2048x1024.Idx → EReal := m ((c : Thread nD τ).loc main_arg2)
abbrev argWq : S1024x1024.Idx → EReal := m ((c : Thread nD τ).loc main_arg3)
abbrev argbq : S1024.Idx → EReal := m ((c : Thread nD τ).loc main_arg4)
abbrev argWc : S1024x2048.Idx → EReal := m ((c : Thread nD τ).loc main_arg5)
abbrev argbc : S1024.Idx → EReal := m ((c : Thread nD τ).loc main_arg6)

/-- The keys in their narrower format are the keys. -/
theorem V_keys : (V m c main_v0 : S32x2048x1024.Idx → EReal) = argK m c := by
  dsimp only [Gen.V, Gen.hostOps0]; after_results; rfl
/-- The values likewise. -/
theorem V_vals : (V m c main_v1 : S32x2048x1024.Idx → EReal) = argV m c := by
  dsimp only [Gen.V, Gen.hostOps0]; after_results; rfl
/-- The projection matrix likewise. -/
theorem V_wq : (V m c main_v2 : S1024x1024.Idx → EReal) = argWq m c := by
  dsimp only [Gen.V, Gen.hostOps0]; after_results; rfl
/-- The first half of the output matrix: its columns from 0. -/
theorem V_wcLo : (V m c main_v4 : S1024x1024.Idx → EReal)
    = extractStridedSlice S1024x1024 ![0, 0] (argWc m c) slices_S1024x2048_S1024x1024_0_0 := by
  dsimp only [Gen.V, Gen.hostOps0]; after_results; rfl
/-- The second half: its columns from 1024. -/
theorem V_wcHi : (V m c main_v6 : S1024x1024.Idx → EReal)
    = extractStridedSlice S1024x1024 ![0, 1024] (argWc m c) slices_S1024x2048_S1024x1024_0_1024 := by
  dsimp only [Gen.V, Gen.hostOps0]; after_results; rfl
/-- The projection bias viewed as one row. -/
theorem V_bq : (V m c main_v7 : S1x1024.Idx → EReal) = shapeCast S1x1024 (argbq m c) shapeCasts_S1024_S1x1024 := by
  dsimp only [Gen.V, Gen.hostOps0]; after_results; rfl
/-- The output bias viewed as one row. -/
theorem V_bc : (V m c main_v8 : S1x1024.Idx → EReal) = shapeCast S1x1024 (argbc m c) shapeCasts_S1024_S1x1024 := by
  dsimp only [Gen.V, Gen.hostOps0]; after_results; rfl

/-! ## Where each window's block sits at a point (decided over the 128 points) -/

/-- The output window's block index is (batch, row tile, 0), and the weights window's is the same. -/
theorem idx_out : ∀ t : Fin cfg0.N, win0_8.index t (0 : Fin 3) < 32 ∧ win0_8.index t (1 : Fin 3) < 4 ∧ win0_8.index t (2 : Fin 3) = 0
    ∧ win0_9.index t (0 : Fin 3) = win0_8.index t (0 : Fin 3) ∧ win0_9.index t (1 : Fin 3) = win0_8.index t (1 : Fin 3)
    ∧ win0_9.index t (2 : Fin 3) = 0 :=
  (by decide +kernel : ∀ t : Fin grid0.N, _)

/-- The query window moves with the output window; the key and value windows hold the output's batch, whole. -/
theorem idx_in : ∀ t : Fin cfg0.N, win0_0.index t (0 : Fin 3) = win0_8.index t (0 : Fin 3)
    ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 3) = win0_8.index t (0 : Fin 3) ∧ win0_2.index t (1 : Fin 3) = 0 ∧ win0_2.index t (2 : Fin 3) = 0 :=
  (by decide +kernel : ∀ t : Fin grid0.N, _)

/-- The five resident windows sit at block (0, 0) at every point. -/
theorem idx_res : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every (batch, row tile) is some point's. -/
theorem idx_onto : ∀ (q0 : Fin 32) (q1 : Fin 4), ∃ t : Fin cfg0.N, win0_8.index t = ![q0.val, q1.val, 0] :=
  (by decide +kernel : ∀ (q0 : Fin 32) (q1 : Fin 4), ∃ t : Fin grid0.N, win0_8.index t = ![q0.val, q1.val, 0])

/-- The batch point `t` works on. -/
def bat (t : Fin cfg0.N) : Fin 32 := ⟨win0_8.index t (0 : Fin 3), (idx_out t).1⟩
/-- Query row `r` of point `t`'s tile, as a row of the batch. -/
def row (t : Fin cfg0.N) (r : Fin 256) : Fin 1024 :=
  ⟨win0_8.index t (1 : Fin 3) * 256 + r.val, by have := (idx_out t).2.1; have := r.isLt; omega⟩

/-! ## Each window's block, read at an entry, is an entry of an argument array -/

theorem readQ (t : Fin cfg0.N) (r : Fin 256) (j : Fin 1024) :
    iblk m c 0 t (ix3 (0 : Fin 1) r j) = argQ m c (ix3 (bat t) (row t r) j) := by
  show V m c main_arg0 (((cfg0.win 0).blk t).view.emb (ix3 (0 : Fin 1) r j)) = _
  rw [V_main_arg0]
  obtain ⟨e0, e1, e2, -⟩ := idx_in t
  refine congrArg (argQ m c) (funext fun a => Fin.ext ?_)
  match a with
  | ⟨0, _⟩ => show win0_0.index t (0 : Fin 3) * 1 + 1 * 0 = win0_8.index t (0 : Fin 3); omega
  | ⟨1, _⟩ => show win0_0.index t (1 : Fin 3) * 256 + 1 * r.val = win0_8.index t (1 : Fin 3) * 256 + r.val; omega
  | ⟨2, _⟩ => show win0_0.index t (2 : Fin 3) * 1024 + 1 * j.val = j.val; omega

theorem readK (t : Fin cfg0.N) (l : Fin 2048) (k : Fin 1024) :
    iblk m c 1 t (ix3 (0 : Fin 1) l k) = argK m c (ix3 (bat t) l k) := by
  show V m c main_v0 (((cfg0.win 1).blk t).view.emb (ix3 (0 : Fin 1) l k)) = _
  rw [V_keys]
  obtain ⟨-, -, -, e0, e1, e2, -⟩ := idx_in t
  refine congrArg (argK m c) (funext fun a => Fin.ext ?_)
  match a with
  | ⟨0, _⟩ => show win0_1.index t (0 : Fin 3) * 1 + 1 * 0 = win0_8.index t (0 : Fin 3); omega
  | ⟨1, _⟩ => show win0_1.index t (1 : Fin 3) * 2048 + 1 * l.val = l.val; omega
  | ⟨2, _⟩ => show win0_1.index t (2 : Fin 3) * 1024 + 1 * k.val = k.val; omega

theorem readV (t : Fin cfg0.N) (l : Fin 2048) (v : Fin 1024) :
    iblk m c 2 t (ix3 (0 : Fin 1) l v) = argV m c (ix3 (bat t) l v) := by
  show V m c main_v1 (((cfg0.win 2).blk t).view.emb (ix3 (0 : Fin 1) l v)) = _
  rw [V_vals]
  obtain ⟨-, -, -, -, -, -, e0, e1, e2⟩ := idx_in t
  refine congrArg (argV m c) (funext fun a => Fin.ext ?_)
  match a with
  | ⟨0, _⟩ => show win0_2.index t (0 : Fin 3) * 1 + 1 * 0 = win0_8.index t (0 : Fin 3); omega
  | ⟨1, _⟩ => show win0_2.index t (1 : Fin 3) * 2048 + 1 * l.val = l.val; omega
  | ⟨2, _⟩ => show win0_2.index t (2 : Fin 3) * 1024 + 1 * v.val = v.val; omega

theorem readWq (t : Fin cfg0.N) (k j : Fin 1024) : iblk m c 3 t (ix2 k j) = argWq m c (ix2 k j) := by
  show V m c main_v2 (((cfg0.win 3).blk t).view.emb (ix2 k j)) = _
  rw [V_wq]
  obtain ⟨e0, e1, -⟩ := idx_res t
  refine congrArg (argWq m c) (funext fun a => Fin.ext ?_)
  match a with
  | ⟨0, _⟩ => show win0_3.index t (0 : Fin 2) * 1024 + 1 * k.val = k.val; omega
  | ⟨1, _⟩ => show win0_3.index t (1 : Fin 2) * 1024 + 1 * j.val = j.val; omega

theorem readbq (t : Fin cfg0.N) (k : Fin 1024) : iblk m c 4 t (ix2 (0 : Fin 1) k) = argbq m c (ix1 k) := by
  show V m c main_v7 (((cfg0.win 4).blk t).view.emb (ix2 (0 : Fin 1) k)) = _
  rw [V_bq]
  obtain ⟨-, -, e0, e1, -⟩ := idx_res t
  rw [show ((cfg0.win 4).blk t).view.emb (ix2 (0 : Fin 1) k) = ix2 (0 : Fin 1) k from funext fun a => Fin.ext (by
    match a with
    | ⟨0, _⟩ => show win0_4.index t (0 : Fin 2) * 1 + 1 * 0 = 0; omega
    | ⟨1, _⟩ => show win0_4.index t (1 : Fin 2) * 1024 + 1 * k.val = k.val; omega)]
  exact shapeCast_a_1a_apply _ _ 0 k

theorem readWcLo (t : Fin cfg0.N) (o j : Fin 1024) : iblk m c 5 t (ix2 o j) = argWc m c (ix2 o (lo j)) := by
  show V m c main_v4 (((cfg0.win 5).blk t).view.emb (ix2 o j)) = _
  rw [V_wcLo]
  obtain ⟨-, -, -, -, e0, e1, -⟩ := idx_res t
  rw [show ((cfg0.win 5).blk t).view.emb (ix2 o j) = ix2 o j from funext fun a => Fin.ext (by
    match a with
    | ⟨0, _⟩ => show win0_5.index t (0 : Fin 2) * 1024 + 1 * o.val = o.val; omega
    | ⟨1, _⟩ => show win0_5.index t (1 : Fin 2) * 1024 + 1 * j.val = j.val; omega)]
  exact slice2_axis1_apply 0 (argWc m c) _ o j (lo j) (Nat.zero_add _).symm

theorem readWcHi (t : Fin cfg0.N) (o v : Fin 1024) : iblk m c 6 t (ix2 o v) = argWc m c (ix2 o (hi v)) := by
  show V m c main_v6 (((cfg0.win 6).blk t).view.emb (ix2 o v)) = _
  rw [V_wcHi]
  obtain ⟨-, -, -, -, -, -, e0, e1, -⟩ := idx_res t
  rw [show ((cfg0.win 6).blk t).view.emb (ix2 o v) = ix2 o v from funext fun a => Fin.ext (by
    match a with
    | ⟨0, _⟩ => show win0_6.index t (0 : Fin 2) * 1024 + 1 * o.val = o.val; omega
    | ⟨1, _⟩ => show win0_6.index t (1 : Fin 2) * 1024 + 1 * v.val = v.val; omega)]
  exact slice2_axis1_apply 1024 (argWc m c) _ o v (hi v) rfl

theorem readbc (t : Fin cfg0.N) (o : Fin 1024) : iblk m c 7 t (ix2 (0 : Fin 1) o) = argbc m c (ix1 o) := by
  show V m c main_v8 (((cfg0.win 7).blk t).view.emb (ix2 (0 : Fin 1) o)) = _
  rw [V_bc]
  obtain ⟨-, -, -, -, -, -, -, -, e0, e1⟩ := idx_res t
  rw [show ((cfg0.win 7).blk t).view.emb (ix2 (0 : Fin 1) o) = ix2 (0 : Fin 1) o from funext fun a => Fin.ext (by
    match a with
    | ⟨0, _⟩ => show win0_7.index t (0 : Fin 2) * 1 + 1 * 0 = 0; omega
    | ⟨1, _⟩ => show win0_7.index t (1 : Fin 2) * 1024 + 1 * o.val = o.val; omega)]
  exact shapeCast_a_1a_apply _ _ 0 o

/-- Entry `(u, r, o)` of the output block of point `t` is entry `(bat t, row t r, o)` of the output array. -/
theorem emb8_eq (t : Fin cfg0.N) (u : Fin 1) (r : Fin 256) (o : Fin 1024) :
    ((cfg0.win 8).blk t).view.emb (ix3 u r o) = ix3 (bat t) (row t r) o := by
  obtain ⟨-, -, h2, -⟩ := idx_out t
  have hu := u.isLt
  refine funext fun a => Fin.ext ?_
  match a with
  | ⟨0, _⟩ => show win0_8.index t (0 : Fin 3) * 1 + 1 * u.val = win0_8.index t (0 : Fin 3); omega
  | ⟨1, _⟩ => show win0_8.index t (1 : Fin 3) * 256 + 1 * r.val = win0_8.index t (1 : Fin 3) * 256 + r.val; omega
  | ⟨2, _⟩ => show win0_8.index t (2 : Fin 3) * 1024 + 1 * o.val = o.val; omega

/-- The same for the weights block. -/
theorem emb9_eq (t : Fin cfg0.N) (u : Fin 1) (r : Fin 256) (l : Fin 2048) :
    ((cfg0.win 9).blk t).view.emb (ix3 u r l) = ix3 (bat t) (row t r) l := by
  obtain ⟨-, -, -, h0, h1, h2⟩ := idx_out t
  have hu := u.isLt
  refine funext fun a => Fin.ext ?_
  match a with
  | ⟨0, _⟩ => show win0_9.index t (0 : Fin 3) * 1 + 1 * u.val = win0_8.index t (0 : Fin 3); omega
  | ⟨1, _⟩ => show win0_9.index t (1 : Fin 3) * 256 + 1 * r.val = win0_8.index t (1 : Fin 3) * 256 + r.val; omega
  | ⟨2, _⟩ => show win0_9.index t (2 : Fin 3) * 2048 + 1 * l.val = l.val; omega

/-! ## What a point writes back is its block of one array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output array as a function of the arguments as launched. -/
abbrev outOf : S32x1024x1024.Idx → EReal :=
  outArr (argQ m c) (argK m c) (argV m c) (argWq m c) (argbq m c) (argWc m c) (argbc m c)
/-- The weights array as a function of the arguments as launched. -/
abbrev weightsOf : S32x1024x2048.Idx → EReal := weightArr (argQ m c) (argK m c) (argWq m c) (argbq m c)

theorem flushed8_eq (t : Fin cfg0.N) :
    (dats m 0 c).flushed 8 t = ((cfg0.win 8).blk t).view.read (Elt Ideal) (outOf m c) := by
  show (cfg0.win 8).cut (grid0.coords t) ((dats m 0 c).after 8 t) = _
  rw [after0_8]
  unfold out0_8
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  funext j
  obtain ⟨u, r, o, rfl⟩ : ∃ (u : Fin 1) (r : Fin 256) (o : Fin 1024), j = ix3 u r o :=
    ⟨j 0, j 1, j 2, eq_ix3 (n0 := 1) (n1 := 256) (n2 := 1024) j⟩
  refine (pay1_apply (iblk m c 0 t) (iblk m c 1 t) (iblk m c 2 t) (iblk m c 3 t) (iblk m c 4 t) (iblk m c 5 t)
    (iblk m c 6 t) (iblk m c 7 t) u r o).trans ?_
  show _ = outOf m c (((cfg0.win 8).blk t).view.emb (ix3 u r o))
  rw [emb8_eq]
  show _ = outAt (argQ m c) (argK m c) (argV m c) (argWq m c) (argbq m c) (argWc m c) (argbc m c) (bat t) (row t r) o
  unfold outAt
  exact outRow_congr (readQ m c t r) (readWq m c t) (readbq m c t) (readK m c t) (readV m c t) (readWcLo m c t)
    (readWcHi m c t) (readbc m c t) o

theorem flushed9_eq (t : Fin cfg0.N) :
    (dats m 0 c).flushed 9 t = ((cfg0.win 9).blk t).view.read (Elt Ideal) (weightsOf m c) := by
  show (cfg0.win 9).cut (grid0.coords t) ((dats m 0 c).after 9 t) = _
  rw [after0_9]
  unfold out0_9
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  funext j
  obtain ⟨u, r, l, rfl⟩ : ∃ (u : Fin 1) (r : Fin 256) (l : Fin 2048), j = ix3 u r l :=
    ⟨j 0, j 1, j 2, eq_ix3 (n0 := 1) (n1 := 256) (n2 := 2048) j⟩
  refine (pay4_apply (iblk m c 0 t) (iblk m c 1 t) (iblk m c 3 t) (iblk m c 4 t) u r l).trans ?_
  show _ = weightsOf m c (((cfg0.win 9).blk t).view.emb (ix3 u r l))
  rw [emb9_eq]
  show _ = weightAt (argQ m c) (argK m c) (argWq m c) (argbq m c) (bat t) (row t r) l
  unfold weightAt
  exact weight_congr (readQ m c t r) (readWq m c t) (readbq m c t) (readK m c t) l

/-! ## The blocks tile the arrays -/

theorem mem_blk8 (t : Fin cfg0.N) (i : S32x1024x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v9_0).slice (win0_8.rect t)).set ↔ _
  rw [View.set_slice_whole, Rect.mem_set_unit]
  exact Iff.rfl

theorem mem_blk9 (t : Fin cfg0.N) (i : S32x1024x2048.Idx) :
    i ∈ ((cfg0.win 9).blk t).view.set ↔ ∀ a : Fin 3, win0_9.index t a * S1x256x2048.size a ≤ (i a).val
      ∧ (i a).val < win0_9.index t a * S1x256x2048.size a + S1x256x2048.size a := by
  show i ∈ ((View.whole main_v9_1).slice (win0_9.rect t)).set ↔ _
  rw [View.set_slice_whole, Rect.mem_set_unit]
  exact Iff.rfl

/-- Entry `(b, s, o)` of the output array is in the block of the point for batch `b` and row tile `s / 256`. -/
theorem cover8 (i : S32x1024x1024.Idx) :
    ∃ t : Fin cfg0.N, (cfg0.win 8).flush t = true ∧ i ∈ ((cfg0.win 8).blk t).view.set := by
  have hi0 : (i 0).val < 32 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

theorem cover9 (i : S32x1024x2048.Idx) :
    ∃ t : Fin cfg0.N, (cfg0.win 9).flush t = true ∧ i ∈ ((cfg0.win 9).blk t).view.set := by
  have hi0 : (i 0).val < 32 := (i 0).isLt
  have hi1 : (i 1).val < 1024 := (i 1).isLt
  have hi2 : (i 2).val < 2048 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  obtain ⟨-, -, -, h0, h1, h2⟩ := idx_out t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 2048 ≤ (i 2).val ∧ (i 2).val < win0_9.index t (2 : Fin 3) * 2048 + 2048; omega

/-! ## The arrays after the run -/

theorem final8 : (dats m 0 c).arrAt 8 cfg0.N = outOf m c :=
  (dats m 0 c).arrAt_eq_of_cover 8 (outOf m c) (fun t _ => flushed8_eq m c t) cover8

theorem final9 : (dats m 0 c).arrAt 9 cfg0.N = weightsOf m c :=
  (dats m 0 c).arrAt_eq_of_cover 9 (weightsOf m c) (fun t _ => flushed9_eq m c t) cover9

/-- The kernel's run: it terminates with the output array at `outArr` and the weights array at `weightArr` of the
    arguments as launched, and the arguments unchanged. -/
theorem run : θ_run defs (onTc (τ := τ) (main (F := Ideal))) ⟨m, fun _ => 0, ρ⟩ fun r => ∀ c : Dev nD,
      r.2.mem ((c : Thread nD τ).loc main_v9_0) = outOf m c
      ∧ r.2.mem ((c : Thread nD τ).loc main_v9_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.1.trans (final9 m c), (h c).2.2⟩)
    (Cert.KernelIdeal.Value.run_blocks m ρ)

end Cert.KernelIdeal.Blocks

end
-- ==== Proof.RefRows.lean ====
/-
  The reference program, one operation at a time, read at query row `(b, t)`: each stage is the function of
  `Spec.lean` of that row against batch `b`'s keys and values.

  The stages that are one element of each operand, a matrix product or a sum are read by the generated lemmas; two
  are read here by hand. The row maximum is a fold of `max` over the key coordinate from the −∞ word, after which the
  program takes `max` with the −∞ word once more — which changes nothing, the fold being already above the value
  it started from. The concatenation of the query row and the weighted values along the last axis is read half by
  half, and the product with the whole output matrix then splits into the sum over the first 1024 columns (the query)
  plus the sum over the last 1024 (the weighted values).
-/
import proofs.«111435_j9637906612873_2_alg».proof.Proof.Gen.ReferenceIdeal.Read
import proofs.«111435_j9637906612873_2_alg».proof.Proof.Spec
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read
open Idealize.ShloMosaic Idealize.ShloMosaic.ValueIdx Cert.AttnSpec

variable (x0 : (⟨S32x1024x1024, .f32⟩ : BufTy).Contents (Elt Ideal)) (x1 x2 : (⟨S32x2048x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x2048, .f32⟩ : BufTy).Contents (Elt Ideal)) (x6 : (⟨S1024, .f32⟩ : BufTy).Contents (Elt Ideal))

/-- Query row `(b, t)`, the projection, its bias, and batch `b`'s keys and values, by coordinates. -/
abbrev qRow (b : Fin 32) (t : Fin 1024) : Fin 1024 → EReal := fun j => x0 (ix3 b t j)
abbrev wq : Fin 1024 → Fin 1024 → EReal := fun k j => x3 (ix2 k j)
abbrev bqv : Fin 1024 → EReal := fun k => x4 (ix1 k)
abbrev keys (b : Fin 32) : Fin 2048 → Fin 1024 → EReal := fun l k => x1 (ix3 b l k)
abbrev vals (b : Fin 32) : Fin 2048 → Fin 1024 → EReal := fun l v => x2 (ix3 b l v)

/-- The projected query. -/
theorem v3_apply (b : Fin 32) (t k : Fin 1024) :
    val_main_v3 (F := Ideal) x0 x3 x4 (ix3 b t k) = proj (qRow x0 b t) (wq x3) (bqv x4) k := by
  rw [val_main_v3_apply, val_main_v0_apply, val_main_v2_apply, val_main_v1_apply]
  have e1 : ∀ j, lidx_main_v0 (ix3 b t k) j = ix3 b t j := fun j => funext fun a => Fin.ext (by match a with | ⟨0, _⟩ => rfl | ⟨1, _⟩ => rfl | ⟨2, _⟩ => rfl)
  have e2 : ∀ j, ridx_main_v0 (ix3 b t k) j = ix2 k j := fun j => funext fun a => Fin.ext (by match a with | ⟨0, _⟩ => rfl | ⟨1, _⟩ => rfl)
  have e3 : idx_main_v1 (idx_main_v2 (ix3 b t k)) = ix1 k := funext fun a => Fin.ext (by match a with | ⟨0, _⟩ => rfl)
  simp only [e1, e2, e3]
  rfl

/-- The score against key `l`. -/
theorem v4_apply (b : Fin 32) (t : Fin 1024) (l : Fin 2048) :
    val_main_v4 (F := Ideal) x0 x1 x3 x4 (ix3 b t l) = score (qRow x0 b t) (wq x3) (bqv x4) (keys x1 b) l := by
  rw [val_main_v4_apply]
  unfold score
  refine Finset.sum_congr rfl fun k _ => ?_
  rw [show lidx_main_v4 (ix3 b t l) k = ix3 b t k from funext fun a => Fin.ext (by match a with | ⟨0, _⟩ => rfl | ⟨1, _⟩ => rfl | ⟨2, _⟩ => rfl),
    show ridx_main_v4 (ix3 b t l) k = ix3 b l k from funext fun a => Fin.ext (by match a with | ⟨0, _⟩ => rfl | ⟨1, _⟩ => rfl | ⟨2, _⟩ => rfl), v3_apply]

/-- The shapes' reduction fact in the form that names the inserted coordinate. -/
theorem reduces_d2 : S32x1024x2048.Reduces [2] S32x1024 := by decide

/-- A maximum over the last axis of a [32, 1024, 2048] array, read at `(b, t)`: the fold of `max` from the initial
    value over the last coordinate, in any order. -/
theorem rowMax_apply (y : S32x1024x2048.Idx → EReal) (init : S_.Idx → EReal) (b : Fin 32) (t : Fin 1024) :
    Host.reduce (FloatOps.maximumf (F := Ideal) (φ := .f32)) y init reducesTo_S32x1024x2048_S32x1024_d2 h_S_ (ix2 b t)
      = (Finset.univ : Finset (Fin 2048)).fold max (init (Shape.Idx.first h_S_)) (fun l => y (ix3 b t l)) := by
  refine (Host.reduce_eq_fold_single (s := S32x1024x2048) (t := S32x1024) (a := (2 : Fin 3))
    (FloatOps.maximumf (F := Ideal) (φ := .f32)) y init reducesTo_S32x1024x2048_S32x1024_d2 reduces_d2 h_S_ (ix2 b t)).trans ?_
  refine congrArg (fun f => (Finset.univ : Finset (Fin 2048)).fold max (init (Shape.Idx.first h_S_)) f) ?_
  funext l
  exact congrArg y (funext fun a => Fin.ext (by match a with | ⟨0, _⟩ => rfl | ⟨1, _⟩ => rfl | ⟨2, _⟩ => rfl))

/-- The row maximum: the fold from −∞ over the key coordinate, and `max` with −∞ once more. -/
theorem v7_apply (b : Fin 32) (t : Fin 1024) :
    val_main_v7 (F := Ideal) x0 x1 x3 x4 (ix2 b t) = top (qRow x0 b t) (wq x3) (bqv x4) (keys x1 b) := by
  rw [val_main_v7_apply, val_main_v6_apply, val_main_cst_0_apply]
  unfold val_main_v5 top
  refine (congrArg (max negInf) (rowMax_apply (val_main_v4 (F := Ideal) x0 x1 x3 x4) (val_main_cst (F := Ideal)) b t)).trans ?_
  refine (max_fold_max_self _ negInf _).trans ?_
  refine congrArg (fun f => (Finset.univ : Finset (Fin 2048)).fold max negInf f) ?_
  funext l
  exact v4_apply x0 x1 x3 x4 b t l

/-- The shifted exponential. -/
theorem v11_apply (b : Fin 32) (t : Fin 1024) (l : Fin 2048) :
    val_main_v11 (F := Ideal) x0 x1 x3 x4 (ix3 b t l) = expo (qRow x0 b t) (wq x3) (bqv x4) (keys x1 b) l := by
  rw [val_main_v11_apply, val_main_v10_apply, val_main_v9_apply, val_main_v8_apply,
    show idx_main_v8 (idx_main_v9 (ix3 b t l)) = ix2 b t from funext fun a => Fin.ext (by match a with | ⟨0, _⟩ => rfl | ⟨1, _⟩ => rfl), v4_apply, v7_apply]
  rfl

/-- The row's sum of shifted exponentials, from the zero word. -/
theorem v12_apply (b : Fin 32) (t : Fin 1024) :
    val_main_v12 (F := Ideal) x0 x1 x3 x4 (ix2 b t) = ∑ l : Fin 2048, expo (qRow x0 b t) (wq x3) (bqv x4) (keys x1 b) l := by
  rw [val_main_v12_apply, val_main_cst_1_apply]
  show Ideal.ofBits .f32 0x00000000#32 + _ = _
  rw [Ideal.ofBits_zero_f32, zero_add]
  refine Finset.sum_congr rfl fun l _ => ?_
  rw [show idx_main_v12 (ix2 b t) l = ix3 b t l from funext fun a => Fin.ext (by match a with | ⟨0, _⟩ => rfl | ⟨1, _⟩ => rfl | ⟨2, _⟩ => rfl), v11_apply]

/-- The softmax weight. -/
theorem v15_apply (b : Fin 32) (t : Fin 1024) (l : Fin 2048) :
    val_main_v15 (F := Ideal) x0 x1 x3 x4 (ix3 b t l) = weightAt x0 x1 x3 x4 b t l := by
  rw [val_main_v15_apply, val_main_v14_apply, val_main_v13_apply,
    show idx_main_v13 (idx_main_v14 (ix3 b t l)) = ix2 b t from funext fun a => Fin.ext (by match a with | ⟨0, _⟩ => rfl | ⟨1, _⟩ => rfl), v11_apply, v12_apply]
  rfl

/-- The weighted values. -/
theorem v16_apply (b : Fin 32) (t v : Fin 1024) :
    val_main_v16 (F := Ideal) x0 x1 x2 x3 x4 (ix3 b t v)
      = attend (qRow x0 b t) (wq x3) (bqv x4) (keys x1 b) (vals x2 b) v := by
  rw [val_main_v16_apply]
  unfold attend
  refine Finset.sum_congr rfl fun l _ => ?_
  rw [show lidx_main_v16 (ix3 b t v) l = ix3 b t l from funext fun a => Fin.ext (by match a with | ⟨0, _⟩ => rfl | ⟨1, _⟩ => rfl | ⟨2, _⟩ => rfl),
    show ridx_main_v16 (ix3 b t v) l = ix3 b l v from funext fun a => Fin.ext (by match a with | ⟨0, _⟩ => rfl | ⟨1, _⟩ => rfl | ⟨2, _⟩ => rfl), v15_apply]
  rfl

/-- The concatenation's first 1024 columns are the query row. -/
theorem v17_lo (b : Fin 32) (t j : Fin 1024) :
    val_main_v17 (F := Ideal) x0 x1 x2 x3 x4 (ix3 b t (lo j)) = x0 (ix3 b t j) := by
  unfold val_main_v17
  exact concatenate_pair_apply_left (t := S32x1024x2048) (s₁ := S32x1024x1024) (s₂ := S32x1024x1024) 2 x0 _
    concatenates_S32x1024x1024_S32x1024x1024_S32x1024x2048_d2 (ix3 b t (lo j)) rfl (ix3 b t j)
    (fun a => by match a with | ⟨0, _⟩ => rfl | ⟨1, _⟩ => rfl | ⟨2, _⟩ => rfl)

/-- Its last 1024 columns are the weighted values. -/
theorem v17_hi (b : Fin 32) (t v : Fin 1024) :
    val_main_v17 (F := Ideal) x0 x1 x2 x3 x4 (ix3 b t (hi v)) = val_main_v16 (F := Ideal) x0 x1 x2 x3 x4 (ix3 b t v) := by
  unfold val_main_v17
  exact concatenate_pair_apply_right (t := S32x1024x2048) (s₁ := S32x1024x1024) (s₂ := S32x1024x1024) 2 x0 _
    concatenates_S32x1024x1024_S32x1024x1024_S32x1024x2048_d2 (ix3 b t (hi v)) rfl rfl (ix3 b t v)
    (fun a => by match a with | ⟨0, _⟩ => exact fun _ => rfl | ⟨1, _⟩ => exact fun _ => rfl | ⟨2, _⟩ => exact fun h => absurd rfl h)
    (Nat.add_comm _ _)

/-- The output entry: the product with the whole output matrix, split at column 1024, plus the bias. -/
theorem v21_apply (b : Fin 32) (t o : Fin 1024) :
    val_main_v21 (F := Ideal) x0 x1 x2 x3 x4 x5 x6 (ix3 b t o) = outAt x0 x1 x2 x3 x4 x5 x6 b t o := by
  rw [val_main_v21_apply, val_main_v18_apply, val_main_v20_apply, val_main_v19_apply]
  have eL : ∀ c, lidx_main_v18 (ix3 b t o) c = ix3 b t c := fun c => funext fun a => Fin.ext (by match a with | ⟨0, _⟩ => rfl | ⟨1, _⟩ => rfl | ⟨2, _⟩ => rfl)
  have eR : ∀ c, ridx_main_v18 (ix3 b t o) c = ix2 o c := fun c => funext fun a => Fin.ext (by match a with | ⟨0, _⟩ => rfl | ⟨1, _⟩ => rfl)
  have eB : idx_main_v19 (idx_main_v20 (ix3 b t o)) = ix1 o := funext fun a => Fin.ext (by match a with | ⟨0, _⟩ => rfl)
  simp only [eL, eR, eB]
  rw [sum_halves]
  simp only [v17_lo, v17_hi, v16_apply]
  rfl

/-- The reference's first result is the output array. -/
theorem out_eq : val_main_v21 (F := Ideal) x0 x1 x2 x3 x4 x5 x6 = outArr x0 x1 x2 x3 x4 x5 x6 := by
  funext i
  obtain ⟨b, t, o, rfl⟩ : ∃ (b : Fin 32) (t : Fin 1024) (o : Fin 1024), i = ix3 b t o := ⟨i 0, i 1, i 2, eq_ix3 i⟩
  rw [v21_apply, outArr_ix3]

/-- Its second result is the array of attention weights. -/
theorem weights_eq : val_main_v15 (F := Ideal) x0 x1 x3 x4 = weightArr x0 x1 x3 x4 := by
  funext i
  obtain ⟨b, t, l, rfl⟩ : ∃ (b : Fin 32) (t : Fin 1024) (l : Fin 2048), i = ix3 b t l := ⟨i 0, i 1, i 2, eq_ix3 i⟩
  rw [v15_apply, weightArr_ix3]

end Cert.ReferenceIdeal.Rows

end
-- ==== Proof.lean ====
/-
  The kernel and its reference compute the same two arrays over the extended reals.

  For every batch `b` and query row `t` both programs project the row, `p = q · Wqᵀ + bq`; score it against the batch's
  2048 keys, `s = p · Kᵀ`; take the softmax the stable way, `w l = exp (s l − max s) / Σ exp (s l' − max s)`; average
  the values, `a = w · V`; and return `w` together with `[q, a] · Wcᵀ + bc`. They differ in three places, none of
  which changes a value on the extended reals:
  • the kernel narrows its matrix operands to a sixteen-bit format on the way into each product — a change of format
    is the identity there;
  • the reference takes `max` of its row maximum with −∞ once more — the maximum is a fold of `max` that started from
    −∞, so it is already above it;
  • the reference multiplies the concatenation `[q, a]` by the whole output matrix, the kernel multiplies `q` and `a`
    by the matrix's two column halves and adds — a sum over 2048 columns is the sum over the first 1024 plus the sum
    over the last 1024, addition on the extended reals being commutative and associative.
  No step uses that the inputs are finite. `Spec.lean` states the common mathematics for one query row;
  `KernelRows.lean` reads one staged block of the kernel as that mathematics and `KernelBlocks.lean` assembles the
  128 blocks into the two whole arrays; `RefRows.lean` reads the reference as the same two arrays. The three frame
  claims are the generated frame runs (the reference's is its generated run with the results dropped), and the
  idealization rewrote nothing, so there is nothing to preserve.
-/
import proofs.«111435_j9637906612873_2_alg».proof.Defs
import proofs.«111435_j9637906612873_2_alg».proof.Proof.Gen.Kernel
import proofs.«111435_j9637906612873_2_alg».proof.Proof.Gen.Kernel.Skeleton
import proofs.«111435_j9637906612873_2_alg».proof.Proof.Gen.Kernel.Launch
import proofs.«111435_j9637906612873_2_alg».proof.Proof.Gen.Kernel.Points
import proofs.«111435_j9637906612873_2_alg».proof.Proof.Gen.Kernel.Frame
import proofs.«111435_j9637906612873_2_alg».proof.Proof.Gen.KernelIdeal
import proofs.«111435_j9637906612873_2_alg».proof.Proof.Gen.KernelIdeal.Skeleton
import proofs.«111435_j9637906612873_2_alg».proof.Proof.Gen.KernelIdeal.Launch
import proofs.«111435_j9637906612873_2_alg».proof.Proof.Gen.KernelIdeal.Points
import proofs.«111435_j9637906612873_2_alg».proof.Proof.Gen.KernelIdeal.Frame
import proofs.«111435_j9637906612873_2_alg».proof.Proof.Gen.ReferenceIdeal
import proofs.«111435_j9637906612873_2_alg».proof.Proof.Gen.Pre_finite_inputs
import proofs.«111435_j9637906612873_2_alg».proof.Proof.Gen.KernelIdeal.Value
import proofs.«111435_j9637906612873_2_alg».proof.Proof.Gen.ReferenceIdeal.Run
import proofs.«111435_j9637906612873_2_alg».proof.Proof.Gen.ReferenceIdeal.Read
import proofs.«111435_j9637906612873_2_alg».proof.Proof.KernelBlocks
import proofs.«111435_j9637906612873_2_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments both programs end with the output array at `outArr` and the
    weights array at `weightArr` of those arguments. -/
theorem algebraic : Cert.algebraic_KernelIdeal_ReferenceIdeal := by
  intro m ρ m' ρ' _ hagree
  refine ⟨fun c => Cert.KernelIdeal.Blocks.outOf m c, fun c => Cert.KernelIdeal.Blocks.weightsOf m c,
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6⟩ := hagree c
    rw [(h c).1, Cert.ReferenceIdeal.Read.val_main_v21_eq, Cert.ReferenceIdeal.Rows.out_eq, a0, a1, a2, a3, a4, a5, a6]
  · obtain ⟨a0, a1, -, a3, a4, -, -⟩ := hagree c
    rw [(h c).2.1, Cert.ReferenceIdeal.Read.val_main_v15_eq, Cert.ReferenceIdeal.Rows.weights_eq, a0, a1, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
